-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192x32 : Shape := ⟨2, ![8192, 32]⟩
abbrev S32x64 : Shape := ⟨2, ![32, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel
  bcast_S_S8192x32 : S_.BroadcastsInDim S8192x32 (![] : Fin 0 → Fin S8192x32.rank)
  reducesTo_S8192x32_S_d0_1 : S8192x32.ReducesTo [0, 1] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S64 .f32) (main_arg5 : FVec F S64x16 .f32) (main_arg6 : FVec F S16 .f32) (main_v13 : IVec S_ 1) (main_v16 : IVec S32x64 1) : IVec S_ 1 :=
  let main_c_5 : IVec S_ 1 := constantI S_ 1 1#1
  let main_v17 : IVec S_ 1 := (fun x v => Host.reduce IntOp.andi x v reducesTo_S32x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x16 .f32 := Host.absf main_arg5
  let main_cst_8 : FVec F S_ .f32 := constant S_ .f32 0x7F800000#32
  let main_v25 : FVec F S64x16 .f32 := broadcastInDim S64x16 ![] bcast_S_S64x16 main_cst_8
  let main_v26 : IVec S64x16 1 := cmpf .olt main_v24 main_v25
  let main_c_9 : IVec S_ 1 := constantI S_ 1 1#1
  let main_v27 : IVec S_ 1 := (fun x v => Host.reduce IntOp.andi x v reducesTo_S64x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S8192x8192 .f32) (main_arg1 : FVec F S8192x8192 .f32) (main_arg2 : FVec F S8192x32 .f32) (main_arg3 : FVec F S32x64 .f32) (main_arg4 : FVec F S64 .f32) (main_arg5 : FVec F S64x16 .f32) (main_arg6 : FVec F S16 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x32 .f32 := Host.absf main_arg2
  let main_cst_2 : FVec F S_ .f32 := constant S_ .f32 0x7F800000#32
  let main_v10 : FVec F S8192x32 .f32 := broadcastInDim S8192x32 ![] bcast_S_S8192x32 main_cst_2
  let main_v11 : IVec S8192x32 1 := cmpf .olt main_v9 main_v10
  let main_c_3 : IVec S_ 1 := constantI S_ 1 1#1
  let main_v12 : IVec S_ 1 := (fun x v => Host.reduce IntOp.andi x v reducesTo_S8192x32_S_d0_1 h_S_) main_v11 main_c_3
  let main_v13 : IVec S_ 1 := andi main_v8 main_v12
  let main_v14 : FVec F S32x64 .f32 := Host.absf main_arg3
  let main_cst_4 : FVec F S_ .f32 := constant S_ .f32 0x7F800000#32
  let main_v15 : FVec F S32x64 .f32 := broadcastInDim S32x64 ![] bcast_S_S32x64 main_cst_4
  let main_v16 : IVec S32x64 1 := cmpf .olt main_v14 main_v15
  fn_part1 (F := F) main_arg4 main_arg5 main_arg6 main_v13 main_v16
-- ==== Kernel.lean ====
abbrev S8192x8192 : Shape := ⟨2, ![8192, 8192]⟩
abbrev S8192x32 : Shape := ⟨2, ![8192, 32]⟩
abbrev S32x64 : Shape := ⟨2, ![32, 64]⟩
abbrev S64 : Shape := ⟨1, ![64]⟩
abbrev S64x16 : Shape := ⟨2, ![64, 16]⟩
abbrev S16 : Shape := ⟨1, ![16]⟩
abbrev S8192x64 : Shape := ⟨2, ![8192, 64]⟩
abbrev S256x8192 : Shape := ⟨2, ![256, 8192]⟩
abbrev S256x64 : Shape := ⟨2, ![256, 64]⟩
abbrev S256x32 : Shape := ⟨2, ![256, 32]⟩
abbrev S256x2048 : Shape := ⟨2, ![256, 2048]⟩
abbrev S2048x32 : Shape := ⟨2, ![2048, 32]⟩
abbrev S1x64 : Shape := ⟨2, ![1, 64]⟩
abbrev S8192x16 : Shape := ⟨2, ![8192, 16]⟩
abbrev S256x16 : Shape := ⟨2, ![256, 16]⟩
abbrev S2048x64 : Shape := ⟨2, ![2048, 64]⟩
abbrev S1x16 : Shape := ⟨2, ![1, 16]⟩

abbrev nBuf : Space → Nat
  | .hbm => 13
  | .vmem => 18
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S32x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S8192x32, .bf16⟩
  | .hbm, ⟨8, _⟩ => ⟨S32x64, .bf16⟩
  | .hbm, ⟨9, _⟩ => ⟨S64x16, .bf16⟩
  | .hbm, ⟨10, _⟩ => ⟨S8192x64, .f32⟩
  | .hbm, ⟨11, _⟩ => ⟨S8192x64, .bf16⟩
  | .hbm, ⟨12, _⟩ => ⟨S8192x16, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S8192x32, .bf16⟩
  | .local _ .vmem, ⟨5, _⟩ => ⟨S32x64, .bf16⟩
  | .local _ .vmem, ⟨6, _⟩ => ⟨S64, .f32⟩
  | .local _ .vmem, ⟨7, _⟩ => ⟨S256x64, .f32⟩
  | .local _ .vmem, ⟨8, _⟩ => ⟨S256x64, .f32⟩
  | .local _ .vmem, ⟨9, _⟩ => ⟨S256x8192, .f32⟩
  | .local _ .vmem, ⟨10, _⟩ => ⟨S256x8192, .f32⟩
  | .local _ .vmem, ⟨11, _⟩ => ⟨S256x8192, .f32⟩
  | .local _ .vmem, ⟨12, _⟩ => ⟨S256x8192, .f32⟩
  | .local _ .vmem, ⟨13, _⟩ => ⟨S8192x64, .bf16⟩
  | .local _ .vmem, ⟨14, _⟩ => ⟨S64x16, .bf16⟩
  | .local _ .vmem, ⟨15, _⟩ => ⟨S16, .f32⟩
  | .local _ .vmem, ⟨16, _⟩ => ⟨S256x16, .f32⟩
  | .local _ .vmem, ⟨17, _⟩ => ⟨S256x16, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8192x32 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8192x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S256x16 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  inb_S256x8192_S256x2048_0_0 : ∀ a, (![0, 0] : Fin 2 → Nat) a + S256x2048.size a ≤ S256x8192.size a
  h_S256x2048 : 0 < S256x2048.numel
  inb_S8192x32_S2048x32_0_0 : ∀ a, (![0, 0] : Fin 2 → Nat) a + S2048x32.size a ≤ S8192x32.size a
  h_S2048x32 : 0 < S2048x32.numel
  shapeCasts_S2048x32_S2048x32 : S2048x32.ShapeCasts S2048x32
  inb_S256x8192_S256x2048_0_2048 : ∀ a, (![0, 2048] : Fin 2 → Nat) a + S256x2048.size a ≤ S256x8192.size a
  inb_S8192x32_S2048x32_2048_0 : ∀ a, (![2048, 0] : Fin 2 → Nat) a + S2048x32.size a ≤ S8192x32.size a
  inb_S256x8192_S256x2048_0_4096 : ∀ a, (![0, 4096] : Fin 2 → Nat) a + S256x2048.size a ≤ S256x8192.size a
  inb_S8192x32_S2048x32_4096_0 : ∀ a, (![4096, 0] : Fin 2 → Nat) a + S2048x32.size a ≤ S8192x32.size a
  inb_S256x8192_S256x2048_0_6144 : ∀ a, (![0, 6144] : Fin 2 → Nat) a + S256x2048.size a ≤ S256x8192.size a
  inb_S8192x32_S2048x32_6144_0 : ∀ a, (![6144, 0] : Fin 2 → Nat) a + S2048x32.size a ≤ S8192x32.size a
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S64_S64_0 : ∀ a, (![0] : Fin 1 → Nat) a + S64.size a ≤ S64.size a
  h_S64 : 0 < S64.numel
  shapeCasts_S64_S1x64 : S64.ShapeCasts S1x64
  broadcasts_S1x64_S256x64 : S1x64.Broadcasts S256x64
  inb_S256x64_S256x64_0_0 : ∀ a, (![0, 0] : Fin 2 → Nat) a + S256x64.size a ≤ S256x64.size a
  h_S256x64 : 0 < S256x64.numel
  inb_S8192x64_S2048x64_0_0 : ∀ a, (![0, 0] : Fin 2 → Nat) a + S2048x64.size a ≤ S8192x64.size a
  h_S2048x64 : 0 < S2048x64.numel
  shapeCasts_S2048x64_S2048x64 : S2048x64.ShapeCasts S2048x64
  inb_S8192x64_S2048x64_2048_0 : ∀ a, (![2048, 0] : Fin 2 → Nat) a + S2048x64.size a ≤ S8192x64.size a
  inb_S8192x64_S2048x64_4096_0 : ∀ a, (![4096, 0] : Fin 2 → Nat) a + S2048x64.size a ≤ S8192x64.size a
  inb_S8192x64_S2048x64_6144_0 : ∀ a, (![6144, 0] : Fin 2 → Nat) a + S2048x64.size a ≤ S8192x64.size a
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S16_S16_0 : ∀ a, (![0] : Fin 1 → Nat) a + S16.size a ≤ S16.size a
  h_S16 : 0 < S16.numel
  shapeCasts_S16_S1x16 : S16.ShapeCasts S1x16
  broadcasts_S1x16_S256x16 : S1x16.Broadcasts S256x16
  inb_S256x16_S256x16_0_0 : ∀ a, (![0, 0] : Fin 2 → Nat) a + S256x16.size a ≤ S256x16.size a
  h_S256x16 : 0 < S256x16.numel
  dot_S256x2048_S2048x32_S256x32_1_0_0_1_n_n_wf : DotDims.WF S256x2048 S2048x32 S256x32 [1] [0] [0] [1] [] []
  dot_S256x32_S32x64_S256x64_1_0_0_1_n_n_wf : DotDims.WF S256x32 S32x64 S256x64 [1] [0] [0] [1] [] []
  dot_S256x2048_S2048x64_S256x64_1_0_0_1_n_n_wf : DotDims.WF S256x2048 S2048x64 S256x64 [1] [0] [0] [1] [] []
  dot_S256x64_S64x16_S256x16_1_0_0_1_n_n_wf : DotDims.WF S256x64 S64x16 S256x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x32.size a ≤ S8192x32.size a
  hwx0_2 : ∀ i : grid0.Coords, EltTy.bits .bf16 = 32 ∨ (Rect.block (s := S8192x32) S8192x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .bf16 = 32 ∨ (Rect.block (s := S32x64) S32x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64.size a ≤ S8192x64.size a
  hwx0_5 : ∀ i : grid0.Coords, EltTy.bits .f32 = 32 ∨ (Rect.block (s := S8192x64) S256x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x8192.size a ≤ S8192x8192.size a
  hwx1_1 : ∀ i : grid1.Coords, EltTy.bits .f32 = 32 ∨ (Rect.block (s := S8192x8192) S256x8192.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S8192x64.size a
  hwx1_2 : ∀ i : grid1.Coords, EltTy.bits .bf16 = 32 ∨ (Rect.block (s := S8192x64) S8192x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .bf16 = 32 ∨ (Rect.block (s := S64x16) S64x16.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16.size a ≤ S16.size a
  hwx1_4 : ∀ i : grid1.Coords, EltTy.bits .f32 = 32 ∨ (Rect.block (s := S16) S16.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S256x16.size a ≤ S8192x16.size a
  hwx1_5 : ∀ i : grid1.Coords, EltTy.bits .f32 = 32 ∨ (Rect.block (s := S8192x16) S256x16.size (cc1_transform_5 i) (hinb1_5 i)).WholeWords (EltTy.packing .f32)

variable [Facts₀]

def dot_S256x2048_S2048x32_S256x32_1_0_0_1_n_n : DotDims S256x2048 S2048x32 S256x32 where
  lhsContracting := [1]
  rhsContracting := [0]
  lhsNonContracting := [0]
  rhsNonContracting := [1]
  lhsBatch := []
  rhsBatch := []
  wf := dot_S256x2048_S2048x32_S256x32_1_0_0_1_n_n_wf
def dot_S256x32_S32x64_S256x64_1_0_0_1_n_n : DotDims S256x32 S32x64 S256x64 where
  lhsContracting := [1]
  rhsContracting := [0]
  lhsNonContracting := [0]
  rhsNonContracting := [1]
  lhsBatch := []
  rhsBatch := []
  wf := dot_S256x32_S32x64_S256x64_1_0_0_1_n_n_wf
def dot_S256x2048_S2048x64_S256x64_1_0_0_1_n_n : DotDims S256x2048 S2048x64 S256x64 where
  lhsContracting := [1]
  rhsContracting := [0]
  lhsNonContracting := [0]
  rhsNonContracting := [1]
  lhsBatch := []
  rhsBatch := []
  wf := dot_S256x2048_S2048x64_S256x64_1_0_0_1_n_n_wf
def dot_S256x64_S64x16_S256x16_1_0_0_1_n_n : DotDims S256x64 S64x16 S256x16 where
  lhsContracting := [1]
  rhsContracting := [0]
  lhsNonContracting := [0]
  rhsNonContracting := [1]
  lhsBatch := []
  rhsBatch := []
  wf := dot_S256x64_S64x16_S256x16_1_0_0_1_n_n_wf

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S256x8192.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S8192x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S256x16.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S8192x8192 : Shape := ⟨2, ![8192, 8192]⟩
abbrev S8192x32 : Shape := ⟨2, ![8192, 32]⟩
abbrev S32x64 : Shape := ⟨2, ![32, 64]⟩
abbrev S64 : Shape := ⟨1, ![64]⟩
abbrev S64x16 : Shape := ⟨2, ![64, 16]⟩
abbrev S16 : Shape := ⟨1, ![16]⟩
abbrev S8192x64 : Shape := ⟨2, ![8192, 64]⟩
abbrev S1x64 : Shape := ⟨2, ![1, 64]⟩
abbrev S_ : Shape := ⟨0, ![]⟩
abbrev S8192x16 : Shape := ⟨2, ![8192, 16]⟩
abbrev S1x16 : Shape := ⟨2, ![1, 16]⟩

abbrev nBuf : Space → Nat
  | .hbm => 41
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .hbm, ⟨2, _⟩ => ⟨S8192x32, .f32⟩
  | .hbm, ⟨3, _⟩ => ⟨S32x64, .f32⟩
  | .hbm, ⟨4, _⟩ => ⟨S64, .f32⟩
  | .hbm, ⟨5, _⟩ => ⟨S64x16, .f32⟩
  | .hbm, ⟨6, _⟩ => ⟨S16, .f32⟩
  | .hbm, ⟨7, _⟩ => ⟨S8192x32, .f32⟩
  | .hbm, ⟨8, _⟩ => ⟨S8192x64, .f32⟩
  | .hbm, ⟨9, _⟩ => ⟨S1x64, .f32⟩
  | .hbm, ⟨10, _⟩ => ⟨S8192x64, .f32⟩
  | .hbm, ⟨11, _⟩ => ⟨S8192x64, .f32⟩
  | .hbm, ⟨12, _⟩ => ⟨S_, .f32⟩
  | .hbm, ⟨13, _⟩ => ⟨S8192x64, .f32⟩
  | .hbm, ⟨14, _⟩ => ⟨S8192x64, .f32⟩
  | .hbm, ⟨15, _⟩ => ⟨S8192x32, .f32⟩
  | .hbm, ⟨16, _⟩ => ⟨S8192x64, .f32⟩
  | .hbm, ⟨17, _⟩ => ⟨S1x64, .f32⟩
  | .hbm, ⟨18, _⟩ => ⟨S8192x64, .f32⟩
  | .hbm, ⟨19, _⟩ => ⟨S8192x64, .f32⟩
  | .hbm, ⟨20, _⟩ => ⟨S_, .f32⟩
  | .hbm, ⟨21, _⟩ => ⟨S8192x64, .f32⟩
  | .hbm, ⟨22, _⟩ => ⟨S8192x64, .f32⟩
  | .hbm, ⟨23, _⟩ => ⟨S8192x64, .f32⟩
  | .hbm, ⟨24, _⟩ => ⟨S8192x64, .f32⟩
  | .hbm, ⟨25, _⟩ => ⟨S8192x16, .f32⟩
  | .hbm, ⟨26, _⟩ => ⟨S1x16, .f32⟩
  | .hbm, ⟨27, _⟩ => ⟨S8192x16, .f32⟩
  | .hbm, ⟨28, _⟩ => ⟨S8192x16, .f32⟩
  | .hbm, ⟨29, _⟩ => ⟨S_, .f32⟩
  | .hbm, ⟨30, _⟩ => ⟨S8192x16, .f32⟩
  | .hbm, ⟨31, _⟩ => ⟨S8192x16, .f32⟩
  | .hbm, ⟨32, _⟩ => ⟨S8192x64, .f32⟩
  | .hbm, ⟨33, _⟩ => ⟨S8192x16, .f32⟩
  | .hbm, ⟨34, _⟩ => ⟨S1x16, .f32⟩
  | .hbm, ⟨35, _⟩ => ⟨S8192x16, .f32⟩
  | .hbm, ⟨36, _⟩ => ⟨S8192x16, .f32⟩
  | .hbm, ⟨37, _⟩ => ⟨S_, .f32⟩
  | .hbm, ⟨38, _⟩ => ⟨S8192x16, .f32⟩
  | .hbm, ⟨39, _⟩ => ⟨S8192x16, .f32⟩
  | .hbm, ⟨40, _⟩ => ⟨S8192x16, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call2_cst : Ref sig .tc := ⟨.hbm, 29, rfl⟩
abbrev main_call2_v0 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_call3_cst : Ref sig .tc := ⟨.hbm, 37, rfl⟩
abbrev main_call3_v0 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  dot_S8192x8192_S8192x32_S8192x32_1_0_0_1_n_n_wf : DotDims.WF S8192x8192 S8192x32 S8192x32 [1] [0] [0] [1] [] []
  dot_S8192x32_S32x64_S8192x64_1_0_0_1_n_n_wf : DotDims.WF S8192x32 S32x64 S8192x64 [1] [0] [0] [1] [] []
  dot_S8192x8192_S8192x64_S8192x64_1_0_0_1_n_n_wf : DotDims.WF S8192x8192 S8192x64 S8192x64 [1] [0] [0] [1] [] []
  dot_S8192x64_S64x16_S8192x16_1_0_0_1_n_n_wf : DotDims.WF S8192x64 S64x16 S8192x16 [1] [0] [0] [1] [] []

variable [Facts₀]

def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x16_S8192x16_1_0_0_1_n_n : DotDims S8192x64 S64x16 S8192x16 where
  lhsContracting := [1]
  rhsContracting := [0]
  lhsNonContracting := [0]
  rhsNonContracting := [1]
  lhsBatch := []
  rhsBatch := []
  wf := dot_S8192x64_S64x16_S8192x16_1_0_0_1_n_n_wf

class Facts : Prop extends Facts₀ where

variable [Facts]
-- ==== Proof.LibMatmulRead.lean ====
/-
  A matrix product read at an entry, for ANY contraction record of the "rows by columns" form.

  A record that contracts the left operand's second axis with the right operand's first and has no batch axis
  describes the textbook product of an `a × K` by a `K × b` array. At the ideal instance the product accumulated
  into an all-zero block has, at entry `(p, q)`, the value `Σ_k lhs[p, k] · rhs[k, q]` with `k` over `Fin K`:
  the accumulator's zero is the additive identity, and the record's contraction index set is `Fin K`.
  The record is a variable here, so one proof serves every product of this form in a program.
-/
import Idealize.ShloMosaic.Lib.ValueIdx
import Idealize.ShloMosaic.PureOps.Ideal.Laws

noncomputable section

namespace Idealize.ShloMosaic.MatmulRead

open Idealize.ShloMosaic Idealize.ShloMosaic.ValueIdx
open scoped BigOperators

variable {a K b : ℕ} (D : DotDims (⟨2, ![a, K]⟩ : Shape) (⟨2, ![K, b]⟩ : Shape) (⟨2, ![a, b]⟩ : Shape))

/-- "Rows by columns": the left operand's second axis is contracted with the right operand's first, each operand's
    other axis survives, and there is no batch axis. -/
structure RowsByCols : Prop where
  lc : D.lhsContracting = [1]
  rc : D.rhsContracting = [0]
  ln : D.lhsNonContracting = [0]
  rn : D.rhsNonContracting = [1]
  lb : D.lhsBatch = []
  rb : D.rhsBatch = []

/-- An index read at two equal positions gives equal coordinates. -/
private theorem val_congr {s : Shape} (j : s.Idx) (u v : Nat) (hu : u < s.rank) (hv : v < s.rank) (h : u = v) :
    (j ⟨u, hu⟩).val = (j ⟨v, hv⟩).val := by subst h; rfl

variable {D}

/-- The left operand is read in the result's row. -/
theorem lhsIdx_row (h : RowsByCols D) (j : (⟨2, ![a, b]⟩ : Shape).Idx) (κ : D.contr.Idx) :
    (D.lhsIdx j κ 0).val = (j 0).val := by
  have hb : (0 : Fin (⟨2, ![a, K]⟩ : Shape).rank) ∉ D.lhsBatch := by rw [h.lb]; exact List.not_mem_nil
  have hn : (0 : Fin (⟨2, ![a, K]⟩ : Shape).rank) ∈ D.lhsNonContracting := by rw [h.ln]; exact List.mem_singleton.mpr rfl
  unfold DotDims.lhsIdx
  rw [dif_neg hb, dif_pos hn]
  simp only [Fin.val_cast]
  exact val_congr j _ _ _ _ (by simp [h.lb, h.ln])

/-- The right operand is read in the result's column. -/
theorem rhsIdx_col (h : RowsByCols D) (j : (⟨2, ![a, b]⟩ : Shape).Idx) (κ : D.contr.Idx) :
    (D.rhsIdx j κ 1).val = (j 1).val := by
  have hb : (1 : Fin (⟨2, ![K, b]⟩ : Shape).rank) ∉ D.rhsBatch := by rw [h.rb]; exact List.not_mem_nil
  have hn : (1 : Fin (⟨2, ![K, b]⟩ : Shape).rank) ∈ D.rhsNonContracting := by rw [h.rn]; exact List.mem_singleton.mpr rfl
  unfold DotDims.rhsIdx
  rw [dif_neg hb, dif_pos hn]
  simp only [Fin.val_cast]
  exact val_congr j _ _ _ _ (by simp [h.lb, h.ln, h.rn])

/-- Into a zero accumulator, entry `(p, q)` of the product is `Σ_k lhs[p, k] · rhs[k, q]`. -/
theorem matmul_zero_ix2 (h : RowsByCols D) (hr : D.contr.rank = 1) (hs : D.contr.size ⟨0, by omega⟩ = K)
    (prec : Option ContractPrecision) {φ₁ φ₂ : FTy} (lhs : FVec Ideal (⟨2, ![a, K]⟩ : Shape) φ₁)
    (rhs : FVec Ideal (⟨2, ![K, b]⟩ : Shape) φ₂) (p : Fin a) (q : Fin b) :
    FloatOps.matmul D prec lhs rhs (constant (⟨2, ![a, b]⟩ : Shape) .f32 0x00000000#32) (ix2 p q)
      = ∑ k : Fin K, lhs (ix2 p k) * rhs (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun ax => Fin.ext (by
    match ax with
    | ⟨0, _⟩ => exact lhsIdx_row h _ _
    | ⟨1, _⟩ => exact (D.lhsIdx_val_of_single h.lc _ _).trans hk)
  have er : D.rhsIdx (ix2 p q) ((contrEquiv1 D K hr hs).symm k) = ix2 k q := funext fun ax => Fin.ext (by
    match ax with
    | ⟨0, _⟩ => exact (D.rhsIdx_val_of_single h.rc _ _).trans hk
    | ⟨1, _⟩ => exact rhsIdx_col h _ _)
  rw [el, er]

end Idealize.ShloMosaic.MatmulRead
-- ==== Proof.KernelMatmul.lean ====
/-
  The kernel's four matrix products, each read at an entry.

  Every product in the two kernel bodies contracts the left operand's second axis with the right operand's first,
  has no batch axis, and accumulates into an all-zero block, so each is an instance of the general "rows by columns"
  read: entry `(p, q)` is `Σ_k lhs[p, k] · rhs[k, q]`. Two of the products are one chunk of the neighbour aggregation
  (a 256-row slab of 2048 adjacency columns against 2048 rows of node features, of width 32 in the first layer and
  64 in the second); the other two are the layers' linear maps (32 → 64 and 64 → 16).
-/
import proofs.«151763_j70188355551726_2_alg».proof.Proof.Gen.KernelIdeal
import proofs.«151763_j70188355551726_2_alg».proof.Proof.LibMatmulRead

noncomputable section

namespace Cert.KernelIdeal.MatmulRead

open Cert.KernelIdeal Idealize.ShloMosaic Idealize.ShloMosaic.ValueIdx
open scoped BigOperators

/-- One chunk of the first layer's aggregation: 2048 adjacency columns against 2048 feature rows of width 32. -/
theorem agg32 {φ₁ φ₂ : FTy} (lhs : FVec Ideal S256x2048 φ₁) (rhs : FVec Ideal S2048x32 φ₂) (p : Fin 256) (q : Fin 32) :
    matmul dot_S256x2048_S2048x32_S256x32_1_0_0_1_n_n none lhs rhs (constant S256x32 .f32 0x00000000#32) (ix2 p q)
      = ∑ k : Fin 2048, lhs (ix2 p k) * rhs (ix2 k q) :=
  Idealize.ShloMosaic.MatmulRead.matmul_zero_ix2 (D := dot_S256x2048_S2048x32_S256x32_1_0_0_1_n_n)
    ⟨rfl, rfl, rfl, rfl, rfl, rfl⟩ rfl rfl none lhs rhs p q

/-- The first layer's linear map, 32 → 64. -/
theorem lin32_64 {φ₁ φ₂ : FTy} (lhs : FVec Ideal S256x32 φ₁) (rhs : FVec Ideal S32x64 φ₂) (p : Fin 256) (q : Fin 64) :
    matmul dot_S256x32_S32x64_S256x64_1_0_0_1_n_n none lhs rhs (constant S256x64 .f32 0x00000000#32) (ix2 p q)
      = ∑ k : Fin 32, lhs (ix2 p k) * rhs (ix2 k q) :=
  Idealize.ShloMosaic.MatmulRead.matmul_zero_ix2 (D := dot_S256x32_S32x64_S256x64_1_0_0_1_n_n)
    ⟨rfl, rfl, rfl, rfl, rfl, rfl⟩ rfl rfl none lhs rhs p q

/-- One chunk of the second layer's aggregation: 2048 adjacency columns against 2048 hidden rows of width 64. -/
theorem agg64 {φ₁ φ₂ : FTy} (lhs : FVec Ideal S256x2048 φ₁) (rhs : FVec Ideal S2048x64 φ₂) (p : Fin 256) (q : Fin 64) :
    matmul dot_S256x2048_S2048x64_S256x64_1_0_0_1_n_n none lhs rhs (constant S256x64 .f32 0x00000000#32) (ix2 p q)
      = ∑ k : Fin 2048, lhs (ix2 p k) * rhs (ix2 k q) :=
  Idealize.ShloMosaic.MatmulRead.matmul_zero_ix2 (D := dot_S256x2048_S2048x64_S256x64_1_0_0_1_n_n)
    ⟨rfl, rfl, rfl, rfl, rfl, rfl⟩ rfl rfl none lhs rhs p q

/-- The second layer's linear map, 64 → 16. -/
theorem lin64_16 {φ₁ φ₂ : FTy} (lhs : FVec Ideal S256x64 φ₁) (rhs : FVec Ideal S64x16 φ₂) (p : Fin 256) (q : Fin 16) :
    matmul dot_S256x64_S64x16_S256x16_1_0_0_1_n_n none lhs rhs (constant S256x16 .f32 0x00000000#32) (ix2 p q)
      = ∑ k : Fin 64, lhs (ix2 p k) * rhs (ix2 k q) :=
  Idealize.ShloMosaic.MatmulRead.matmul_zero_ix2 (D := dot_S256x64_S64x16_S256x16_1_0_0_1_n_n)
    ⟨rfl, rfl, rfl, rfl, rfl, rfl⟩ rfl rfl none lhs rhs p q

end Cert.KernelIdeal.MatmulRead
-- ==== Proof.LibChunkSum.lean ====
/-
  Two general facts, about no particular program.

  * A sum over `Fin N` with `N = c + c + c + c` is the sum of its four consecutive chunks of length `c`. Only
    associativity and commutativity of `+` are used, so it holds in every additive commutative monoid — on the
    extended reals with their infinities as well as on the reals.
  * A load through a unit-stride rectangle reads the contents at "offset + coordinate" on every axis, whatever the
    offset (the library states this for the zero offset).
-/
import Mathlib.Algebra.BigOperators.Fin
import Idealize.ShloMosaic.Lib.Pipeline.Value
import Idealize.ShloMosaic.Lib.ValueIdx

namespace Idealize.ShloMosaic.ChunkSum

open scoped BigOperators

/-- A sum over `Fin N`, `N = c + c + c + c`, is the sum of its four consecutive chunks of length `c`. -/
theorem sum_four_chunks {M : Type*} [AddCommMonoid M] (c N : ℕ) (h : N = c + c + c + c) (f : Fin N → M) :
    ∑ i : Fin N, f i
      = (∑ i : Fin c, f ⟨i.val, by have := i.isLt; omega⟩)
        + (∑ i : Fin c, f ⟨c + i.val, by have := i.isLt; omega⟩)
        + (∑ i : Fin c, f ⟨c + c + i.val, by have := i.isLt; omega⟩)
        + (∑ i : Fin c, f ⟨c + c + c + i.val, by have := i.isLt; omega⟩) := by
  subst h
  rw [Fin.sum_univ_add, Fin.sum_univ_add, Fin.sum_univ_add]
  rfl

/-- A load through a unit-stride rectangle, read at an index: the contents at the rectangle's placement of it. -/
theorem ld_unit_apply {Val : EltTy → Type} {S : Shape} {e : EltTy} (off size : Fin S.rank → Nat)
    (inb : ∀ a, off a + size a ≤ S.size a) (X : S.Idx → Val e) (y : (Rect.unit off size inb).shape.Idx) :
    View.ld X (Rect.unit off size inb) y = X ((Rect.unit off size inb).emb y) := rfl

/-- The placement's coordinate on axis `a`: the offset plus the coordinate inside the rectangle. -/
theorem emb_unit_val {S : Shape} (off size : Fin S.rank → Nat) (inb : ∀ a, off a + size a ≤ S.size a)
    (y : (Rect.unit off size inb).shape.Idx) (a : Fin S.rank) :
    ((Rect.unit off size inb).emb y a : Nat) = off a + 1 * (y a : Nat) := rfl

open Idealize.ShloMosaic.ValueIdx in
/-- At rank two: a load through the unit-stride rectangle of extents `a × b` at origin `(o0, o1)`, read at `(p, n)`,
    is the contents at `(o0 + p, o1 + n)`. -/
theorem ld_unit_ix2 {Val : EltTy → Type} {e : EltTy} {A B a b : ℕ} (o0 o1 : ℕ)
    (X : (⟨2, ![A, B]⟩ : Shape).Idx → Val e)
    (inb : ∀ ax, (![o0, o1] : Fin 2 → Nat) ax + (⟨2, ![a, b]⟩ : Shape).size ax ≤ (⟨2, ![A, B]⟩ : Shape).size ax)
    (p : Fin a) (n : Fin b) (h0 : o0 + p.val < A) (h1 : o1 + n.val < B) :
    View.ld X (Rect.unit (s := (⟨2, ![A, B]⟩ : Shape)) ![o0, o1] (⟨2, ![a, b]⟩ : Shape).size inb) (ix2 p n)
      = X (ix2 ⟨o0 + p.val, h0⟩ ⟨o1 + n.val, h1⟩) :=
  congrArg X (funext fun ax => Fin.ext (by
    match ax with
    | ⟨0, _⟩ => show o0 + 1 * p.val = o0 + p.val; omega
    | ⟨1, _⟩ => show o1 + 1 * n.val = o1 + n.val; omega))

end Idealize.ShloMosaic.ChunkSum
-- ==== Proof.LayerSpec.lean ====
/-
  The graph-convolution layer as one function of its arrays, index by index, on the extended reals.

  For an adjacency slab `A` (`rows × n`), node features `X` (`n × din`), weights `W` (`din × dout`) and a bias `b`
  (`dout`), one BRANCH at row `r` and output column `q` is

      max ( Σ_k ( Σ_j A[r, j] · X[j, k] ) · W[k, q] + b[q] , 0 )

  — aggregate the neighbours' features along the adjacency row, apply the linear map, add the bias, clamp below at
  zero — and the LAYER is the sum of the two branches over two adjacency matrices sharing `X`, `W` and `b`.
  The slab's row count is a parameter so that the same function describes a block of rows and the whole array.
  The zero of the clamp is kept as the float word it is written with; it is the same word on both sides of every
  equation it appears in and is never evaluated.
-/
import Idealize.ShloMosaic.PureOps.Ideal.Laws
import Idealize.ShloMosaic.Lib.ValueIdx
import proofs.«151763_j70188355551726_2_alg».proof.Proof.LibChunkSum

noncomputable section

namespace Cert.GraphLayer

open Idealize.ShloMosaic Idealize.ShloMosaic.ValueIdx
open scoped BigOperators

/-- The aggregate of row `r`: entry `k` is `Σ_j A[r, j] · X[j, k]`. -/
def agg {rows n din : ℕ} (A : (⟨2, ![rows, n]⟩ : Shape).Idx → EReal) (X : (⟨2, ![n, din]⟩ : Shape).Idx → EReal)
    (r : Fin rows) (k : Fin din) : EReal :=
  ∑ j : Fin n, A (ix2 r j) * X (ix2 j k)

/-- THE LAW THAT JOINS THE TWO SIDES. The aggregate of a row over `N = c + c + c + c` neighbours is zero plus the four
    partial aggregates over consecutive chunks of `c` neighbours, added in order: a regrouping of one sum, which needs
    no finiteness (sums on the extended reals are associative and commutative, infinities included), and `0 + x = x`. -/
theorem agg_eq_chunks {rows N din : ℕ} (c : ℕ) (h : N = c + c + c + c) (A : (⟨2, ![rows, N]⟩ : Shape).Idx → EReal)
    (X : (⟨2, ![N, din]⟩ : Shape).Idx → EReal) (r : Fin rows) (k : Fin din) :
    agg A X r k
      = Ideal.ofBits .f32 0x00000000#32
        + (∑ i : Fin c, A (ix2 r ⟨i.val, by have := i.isLt; omega⟩) * X (ix2 ⟨i.val, by have := i.isLt; omega⟩ k))
        + (∑ i : Fin c, A (ix2 r ⟨c + i.val, by have := i.isLt; omega⟩) * X (ix2 ⟨c + i.val, by have := i.isLt; omega⟩ k))
        + (∑ i : Fin c, A (ix2 r ⟨c + c + i.val, by have := i.isLt; omega⟩) * X (ix2 ⟨c + c + i.val, by have := i.isLt; omega⟩ k))
        + (∑ i : Fin c, A (ix2 r ⟨c + c + c + i.val, by have := i.isLt; omega⟩) * X (ix2 ⟨c + c + c + i.val, by have := i.isLt; omega⟩ k)) := by
  unfold agg
  rw [Idealize.ShloMosaic.ChunkSum.sum_four_chunks c N h, Ideal.ofBits_zero_f32, zero_add]

/-- One branch at row `r`, column `q`: `max (Σ_k agg[r, k] · W[k, q] + b[q], 0)`. -/
def branch {rows n din dout : ℕ} (A : (⟨2, ![rows, n]⟩ : Shape).Idx → EReal) (X : (⟨2, ![n, din]⟩ : Shape).Idx → EReal)
    (W : (⟨2, ![din, dout]⟩ : Shape).Idx → EReal) (b : (⟨1, ![dout]⟩ : Shape).Idx → EReal) (r : Fin rows) (q : Fin dout) : EReal :=
  max ((∑ k : Fin din, agg A X r k * W (ix2 k q)) + b (ix1 q)) (Ideal.ofBits .f32 0x00000000#32)

/-- The layer: the two branches added, at every row and column. -/
def layer {rows n din dout : ℕ} (A1 A2 : (⟨2, ![rows, n]⟩ : Shape).Idx → EReal) (X : (⟨2, ![n, din]⟩ : Shape).Idx → EReal)
    (W : (⟨2, ![din, dout]⟩ : Shape).Idx → EReal) (b : (⟨1, ![dout]⟩ : Shape).Idx → EReal) :
    (⟨2, ![rows, dout]⟩ : Shape).Idx → EReal :=
  fun i => branch A1 X W b (i 0) (i 1) + branch A2 X W b (i 0) (i 1)

/-- The layer at an index given by its coordinates. -/
theorem layer_ix2 {rows n din dout : ℕ} (A1 A2 : (⟨2, ![rows, n]⟩ : Shape).Idx → EReal) (X : (⟨2, ![n, din]⟩ : Shape).Idx → EReal)
    (W : (⟨2, ![din, dout]⟩ : Shape).Idx → EReal) (b : (⟨1, ![dout]⟩ : Shape).Idx → EReal) (r : Fin rows) (q : Fin dout) :
    layer A1 A2 X W b (ix2 r q) = branch A1 X W b r q + branch A2 X W b r q := rfl

/-- A branch depends on the adjacency slab only through the row it reads: a slab `A'` whose row `r'` is row `r` of
    `A` gives the same value. (A block of rows against the whole array.) -/
theorem branch_congr_row {rows rows' n din dout : ℕ} (A : (⟨2, ![rows, n]⟩ : Shape).Idx → EReal)
    (A' : (⟨2, ![rows', n]⟩ : Shape).Idx → EReal) (X : (⟨2, ![n, din]⟩ : Shape).Idx → EReal)
    (W : (⟨2, ![din, dout]⟩ : Shape).Idx → EReal) (b : (⟨1, ![dout]⟩ : Shape).Idx → EReal) (r : Fin rows) (r' : Fin rows')
    (q : Fin dout) (h : ∀ j : Fin n, A' (ix2 r' j) = A (ix2 r j)) :
    branch A' X W b r' q = branch A X W b r q := by
  unfold branch agg
  simp only [h]

end Cert.GraphLayer
-- ==== Proof.Block0.lean ====
/-
  What the first layer's kernel body leaves in its output block, entry by entry.
-/
import proofs.«151763_j70188355551726_2_alg».proof.Proof.Gen.KernelIdeal.Frame
import proofs.«151763_j70188355551726_2_alg».proof.Proof.KernelMatmul
import proofs.«151763_j70188355551726_2_alg».proof.Proof.LayerSpec
import Idealize.ShloMosaic.Lib.ValueLayout

noncomputable section

namespace Cert.KernelIdeal.Block0

open Cert.KernelIdeal Cert.KernelIdeal.Gen Cert.KernelIdeal.MatmulRead Cert.GraphLayer
open Idealize.ShloMosaic Idealize.ShloMosaic.ValueIdx
open scoped BigOperators

/-- The first adjacency matrix's accumulated aggregate at `(p, k)`: the zero the accumulation starts from plus the four
    chunk products, each a sum over its 2048 neighbours, added in order. -/
theorem pay1_apply (v1 : Vec Ideal S256x2048 .f32) (v3 : Vec Ideal S2048x32 .bf16) (v7 : Vec Ideal S256x2048 .f32)
    (v9 : Vec Ideal S2048x32 .bf16) (v13 : Vec Ideal S256x2048 .f32) (v15 : Vec Ideal S2048x32 .bf16)
    (v19 : Vec Ideal S256x2048 .f32) (v21 : Vec Ideal S2048x32 .bf16) (p : Fin 256) (k : Fin 32) :
    k0_pay1 (F := Ideal) v1 v3 v7 v9 v13 v15 v19 v21 (ix2 p k)
      = Ideal.ofBits .f32 0x00000000#32
        + (∑ n : Fin 2048, v1 (ix2 p n) * v3 (ix2 n k)) + (∑ n : Fin 2048, v7 (ix2 p n) * v9 (ix2 n k))
        + (∑ n : Fin 2048, v13 (ix2 p n) * v15 (ix2 n k)) + (∑ n : Fin 2048, v19 (ix2 p n) * v21 (ix2 n k)) := by
  unfold k0_pay1
  simp only [addf_apply, broadcast_apply, shapeCast_self, agg32, truncf_apply]
  rfl

/-- The second adjacency matrix's aggregate starts the same way: zero plus its first chunk product. -/
theorem pay2_apply (v26 : Vec Ideal S256x2048 .f32) (v28 : Vec Ideal S2048x32 .bf16) (p : Fin 256) (k : Fin 32) :
    k0_pay2 (F := Ideal) v26 v28 (ix2 p k)
      = Ideal.ofBits .f32 0x00000000#32 + (∑ n : Fin 2048, v26 (ix2 p n) * v28 (ix2 n k)) := by
  unfold k0_pay2
  simp only [addf_apply, broadcast_apply, shapeCast_self, agg32, truncf_apply]
  rfl

/-- The stored value at `(p, q)`, from the first aggregate `v24`, the second aggregate's beginning `v31` and its three
    remaining chunk products: each branch is the linear map of its aggregate plus the bias, clamped below at zero;
    the two are added. -/
theorem pay3_apply (v24 v31 : FVec Ideal S256x32 .f32) (v32 : Vec Ideal S256x2048 .f32) (v34 : Vec Ideal S2048x32 .bf16)
    (v38 : Vec Ideal S256x2048 .f32) (v40 : Vec Ideal S2048x32 .bf16) (v44 : Vec Ideal S256x2048 .f32)
    (v46 : Vec Ideal S2048x32 .bf16) (v50 : Vec Ideal S32x64 .bf16) (v52 : Vec Ideal S64 .f32) (p : Fin 256) (q : Fin 64) :
    k0_pay3 (F := Ideal) v24 v31 v32 v34 v38 v40 v44 v46 v50 v52 (ix2 p q)
      = max ((∑ k : Fin 32, v24 (ix2 p k) * v50 (ix2 k q)) + v52 (ix1 q)) (Ideal.ofBits .f32 0x00000000#32)
        + max ((∑ k : Fin 32, (v31 (ix2 p k) + (∑ n : Fin 2048, v32 (ix2 p n) * v34 (ix2 n k))
                  + (∑ n : Fin 2048, v38 (ix2 p n) * v40 (ix2 n k)) + (∑ n : Fin 2048, v44 (ix2 p n) * v46 (ix2 n k)))
                * v50 (ix2 k q)) + v52 (ix1 q)) (Ideal.ofBits .f32 0x00000000#32) := by
  unfold k0_pay3
  simp only [addf_apply, maximumf_apply, broadcast_apply, shapeCast_self, lin32_64, agg32, truncf_apply,
    broadcastTo_1b_ab_apply, shapeCast_a_1a_apply]
  rfl

/-- One chunk's term: the slab read through the rectangle of columns `o … o + 2047` and the features through the
    rectangle of rows `o … o + 2047` are the slab's column `o + n` and the features' row `o + n`. -/
theorem chunk_term (x : Vec Ideal S256x8192 .f32) (X2 : Vec Ideal S8192x32 .bf16) (o : ℕ)
    (inbA : ∀ ax, (![0, o] : Fin 2 → Nat) ax + S256x2048.size ax ≤ S256x8192.size ax)
    (inbX : ∀ ax, (![o, 0] : Fin 2 → Nat) ax + S2048x32.size ax ≤ S8192x32.size ax)
    (p : Fin 256) (n : Fin 2048) (k : Fin 32) (j : Fin 8192) (hj : j.val = o + n.val) :
    View.ld x (Rect.unit (s := S256x8192) ![0, o] S256x2048.size inbA) (ix2 p n)
        * View.ld X2 (Rect.unit (s := S8192x32) ![o, 0] S2048x32.size inbX) (ix2 n k)
      = x (ix2 p j) * X2 (ix2 j k) := by
  refine congrArg₂ (· * ·) (congrArg x (funext fun ax => Fin.ext ?_)) (congrArg X2 (funext fun ax => Fin.ext ?_))
  · match ax with
    | ⟨0, _⟩ => show 0 + 1 * p.val = p.val; omega
    | ⟨1, _⟩ => show o + 1 * n.val = j.val; omega
  · match ax with
    | ⟨0, _⟩ => show o + 1 * n.val = j.val; omega
    | ⟨1, _⟩ => show 0 + 1 * k.val = k.val; omega

/-- THE FOUR CHUNKS ARE THE WHOLE ROW. Zero plus the four chunk products over the loaded rectangles, added in order,
    is the aggregate over all 8192 neighbours. -/
theorem chunks_agg (x : Vec Ideal S256x8192 .f32) (X2 : Vec Ideal S8192x32 .bf16) (p : Fin 256) (k : Fin 32) :
    Ideal.ofBits .f32 0x00000000#32
        + (∑ n : Fin 2048, View.ld x r0_0 (ix2 p n) * View.ld X2 r0_1 (ix2 n k))
        + (∑ n : Fin 2048, View.ld x r0_2 (ix2 p n) * View.ld X2 r0_3 (ix2 n k))
        + (∑ n : Fin 2048, View.ld x r0_4 (ix2 p n) * View.ld X2 r0_5 (ix2 n k))
        + (∑ n : Fin 2048, View.ld x r0_6 (ix2 p n) * View.ld X2 r0_7 (ix2 n k))
      = agg (rows := 256) (n := 8192) (din := 32) x X2 p k := by
  rw [agg_eq_chunks 2048 rfl]
  refine congrArg₂ (· + ·) (congrArg₂ (· + ·) (congrArg₂ (· + ·) (congrArg₂ (· + ·) rfl ?_) ?_) ?_) ?_
  · exact Finset.sum_congr rfl fun n _ => chunk_term x X2 0 _ _ p n k _ (by show n.val = 0 + n.val; omega)
  · exact Finset.sum_congr rfl fun n _ => chunk_term x X2 2048 _ _ p n k _ rfl
  · exact Finset.sum_congr rfl fun n _ => chunk_term x X2 4096 _ _ p n k _ (by show 2048 + 2048 + n.val = 4096 + n.val; omega)
  · exact Finset.sum_congr rfl fun n _ => chunk_term x X2 6144 _ _ p n k _ (by show 2048 + 2048 + 2048 + n.val = 6144 + n.val; omega)

theorem hz2 : (![0, 0] : Fin 2 → Nat) = fun _ => 0 := funext fun a => by fin_cases a <;> rfl
theorem hz1 : (![0] : Fin 1 → Nat) = fun _ => 0 := funext fun a => by fin_cases a; rfl

/-- THE BLOCK. What the body leaves at `(p, q)` of its 256 × 64 output block is the layer function of the blocks it was
    given: its two 256-row adjacency slabs, the whole feature array, the weights and the bias. -/
theorem out_apply (x0 x1 : Vec Ideal S256x8192 .f32) (x2 : Vec Ideal S8192x32 .bf16) (x3 : Vec Ideal S32x64 .bf16)
    (x4 : Vec Ideal S64 .f32) (p : Fin 256) (q : Fin 64) :
    out0_5 (F := Ideal) x0 x1 x2 x3 x4 (ix2 p q)
      = layer (rows := 256) (n := 8192) (din := 32) (dout := 64) x0 x1 x2 x3 x4 (ix2 p q) := by
  unfold out0_5
  rw [View.canon_unit_zero hz2]
  simp only [View.ld_unit_zero (S := S32x64) hz2, View.ld_unit_zero (S := S64) hz1]
  rw [pay3_apply, layer_ix2]
  unfold branch
  have hA : ∀ k : Fin 32, k0_pay1 (F := Ideal) (View.ld x0 r0_0) (View.ld x2 r0_1) (View.ld x0 r0_2) (View.ld x2 r0_3)
      (View.ld x0 r0_4) (View.ld x2 r0_5) (View.ld x0 r0_6) (View.ld x2 r0_7) (ix2 p k)
        = agg (rows := 256) (n := 8192) (din := 32) x0 x2 p k :=
    fun k => (pay1_apply _ _ _ _ _ _ _ _ p k).trans (chunks_agg x0 x2 p k)
  have hB : ∀ k : Fin 32, k0_pay2 (F := Ideal) (View.ld x1 r0_0) (View.ld x2 r0_1) (ix2 p k)
        + (∑ n : Fin 2048, View.ld x1 r0_2 (ix2 p n) * View.ld x2 r0_3 (ix2 n k))
        + (∑ n : Fin 2048, View.ld x1 r0_4 (ix2 p n) * View.ld x2 r0_5 (ix2 n k))
        + (∑ n : Fin 2048, View.ld x1 r0_6 (ix2 p n) * View.ld x2 r0_7 (ix2 n k))
        = agg (rows := 256) (n := 8192) (din := 32) x1 x2 p k :=
    fun k => by rw [pay2_apply]; exact chunks_agg x1 x2 p k
  exact congrArg₂ (· + ·)
    (congrArg (fun s : EReal => max (s + x4 (ix1 q)) (Ideal.ofBits .f32 0x00000000#32))
      (Finset.sum_congr rfl fun k _ => congrArg (· * x3 (ix2 k q)) (hA k)))
    (congrArg (fun s : EReal => max (s + x4 (ix1 q)) (Ideal.ofBits .f32 0x00000000#32))
      (Finset.sum_congr rfl fun k _ => congrArg (· * x3 (ix2 k q)) (hB k)))

end Cert.KernelIdeal.Block0
-- ==== Proof.Array0.lean ====
/-
  The first layer's output array after its pallas_call, as one function of the arrays the call is entered with.

  Grid point `t` (of 32) is given rows `256 t … 256 t + 255` of each adjacency matrix and the whole of the features,
  weights and bias, and writes back rows `256 t … 256 t + 255` of the output. By the block lemma what it writes at
  `(p, q)` is the layer function of its blocks; a branch reads its adjacency slab only in row `p`, which is row
  `256 t + p` of the matrix, so the written block is the corresponding block of the layer function of the WHOLE arrays.
  The 32 blocks tile the 8192 rows (row `r` lies in block `r / 256`), so the array ends holding that function everywhere.
  All of this is at an arbitrary entry contents `V`: it is used once per layer.
-/
import proofs.«151763_j70188355551726_2_alg».proof.Proof.Block0

set_option maxRecDepth 16384

noncomputable section

namespace Cert.KernelIdeal.Array0

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer function of the arrays the call is entered with. -/
def G (c : Dev nD) : S8192x64.Idx → EReal :=
  layer (rows := 8192) (n := 8192) (din := 32) (dout := 64) (V c main_arg0) (V c main_arg1) (V c main_v0) (V c main_v1) (V c main_arg4)

/-- The printed index maps over the grid: the adjacency matrices' and the output's blocks are at block row `t`,
    every other window at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- WHAT POINT `t` WRITES BACK is block `t` of the layer function of the entry arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  obtain ⟨e00, e01, e10, e11, e20, e21, e30, e31, e40, e50, e51⟩ := idx_facts t
  have ht : t.val < 32 := t.isLt
  -- the three windows over whole arrays read those arrays
  have h2 : iblk0 V c 2 t = V c main_v0 := funext fun y => congrArg (V c main_v0) (funext fun ax => Fin.ext (by
    match ax with
    | ⟨0, _⟩ => show win0_2.index t (0 : Fin 2) * 8192 + 1 * (y 0).val = (y 0).val; omega
    | ⟨1, _⟩ => show win0_2.index t (1 : Fin 2) * 32 + 1 * (y 1).val = (y 1).val; omega))
  have h3 : iblk0 V c 3 t = V c main_v1 := funext fun y => congrArg (V c main_v1) (funext fun ax => Fin.ext (by
    match ax with
    | ⟨0, _⟩ => show win0_3.index t (0 : Fin 2) * 32 + 1 * (y 0).val = (y 0).val; omega
    | ⟨1, _⟩ => show win0_3.index t (1 : Fin 2) * 64 + 1 * (y 1).val = (y 1).val; omega))
  have h4 : iblk0 V c 4 t = V c main_arg4 := funext fun y => congrArg (V c main_arg4) (funext fun ax => Fin.ext (by
    match ax with
    | ⟨0, _⟩ => show win0_4.index t (0 : Fin 1) * 64 + 1 * (y 0).val = (y 0).val; omega))
  have key : ∀ (p : Fin 256) (q : Fin 64),
      out0_5 (F := Ideal) (iblk0 V c 0 t) (iblk0 V c 1 t) (iblk0 V c 2 t) (iblk0 V c 3 t) (iblk0 V c 4 t) (ix2 p q)
        = G V c (((cfg0.win 5).blk t).view.emb (ix2 p q)) := by
    intro p q
    have hemb : ((cfg0.win 5).blk t).view.emb (ix2 p q) = ix2 (⟨256 * t.val + p.val, by have := p.isLt; omega⟩ : Fin 8192) q :=
      funext fun ax => Fin.ext (by
        match ax with
        | ⟨0, _⟩ => show win0_5.index t (0 : Fin 2) * 256 + 1 * p.val = 256 * t.val + p.val; omega
        | ⟨1, _⟩ => show win0_5.index t (1 : Fin 2) * 64 + 1 * q.val = q.val; omega)
    refine (Block0.out_apply (iblk0 V c 0 t) (iblk0 V c 1 t) (iblk0 V c 2 t) (iblk0 V c 3 t) (iblk0 V c 4 t) p q).trans ?_
    rw [hemb, h2, h3, h4]
    unfold G
    rw [layer_ix2, layer_ix2]
    refine congrArg₂ (· + ·) (branch_congr_row _ _ _ _ _ _ _ q fun j => ?_) (branch_congr_row _ _ _ _ _ _ _ q fun j => ?_)
    · exact congrArg (V c main_arg0) (funext fun ax => Fin.ext (by
        match ax with
        | ⟨0, _⟩ => show win0_0.index t (0 : Fin 2) * 256 + 1 * p.val = 256 * t.val + p.val; omega
        | ⟨1, _⟩ => show win0_0.index t (1 : Fin 2) * 8192 + 1 * j.val = j.val; omega))
    · exact congrArg (V c main_arg1) (funext fun ax => Fin.ext (by
        match ax with
        | ⟨0, _⟩ => show win0_1.index t (0 : Fin 2) * 256 + 1 * p.val = 256 * t.val + p.val; omega
        | ⟨1, _⟩ => show win0_1.index t (1 : Fin 2) * 8192 + 1 * j.val = j.val; omega))
  funext y
  have hy : y = ix2 (y 0) (y 1) := eq_ix2 y
  rw [hy]
  exact key (y 0) (y 1)

/-- An index of the array is in point `t`'s block iff each coordinate is in the block's range on its axis. -/
theorem mem_blk (t : Fin cfg0.N) (i : S8192x64.Idx) :
    i ∈ ((cfg0.win 5).blk t).view.set ↔ ∀ a : Fin 2, win0_5.index t a * S256x64.size a ≤ (i a).val ∧ (i a).val < win0_5.index t a * S256x64.size a + S256x64.size a := by
  show i ∈ ((View.whole main_v3).slice (win0_5.rect t)).set ↔ _
  rw [View.set_slice_whole, Rect.mem_set_unit]
  exact Iff.rfl

/-- THE BLOCKS TILE THE ROWS: row `r` is written by point `r / 256`. -/
theorem cover (i : S8192x64.Idx) : ∃ t : Fin cfg0.N, (cfg0.win 5).flush t = true ∧ i ∈ ((cfg0.win 5).blk t).view.set := by
  have hi0 : (i 0).val < 8192 := (i 0).isLt
  have hi1 : (i 1).val < 64 := (i 1).isLt
  let t : Fin cfg0.N := ⟨(i 0).val / 256, by show (i 0).val / 256 < 32; omega⟩
  obtain ⟨-, -, -, -, -, -, -, -, -, e50, e51⟩ := idx_facts t
  have ht : t.val = (i 0).val / 256 := rfl
  refine ⟨t, flush0_5 t, ?_⟩
  rw [mem_blk]
  intro a
  match a with
  | ⟨0, _⟩ => show win0_5.index t (0 : Fin 2) * 256 ≤ (i 0).val ∧ (i 0).val < win0_5.index t (0 : Fin 2) * 256 + 256; omega
  | ⟨1, _⟩ => show win0_5.index t (1 : Fin 2) * 64 ≤ (i 1).val ∧ (i 1).val < win0_5.index t (1 : Fin 2) * 64 + 64; omega

/-- THE ARRAY after the call: the layer function of the entry arrays. -/
theorem final (c : Dev nD) : (dat0 V c).arrAt 5 cfg0.N = G V c :=
  (dat0 V c).arrAt_eq_of_cover 5 (G V c) (fun t _ => flushed_eq V c t) (cover)

end Cert.KernelIdeal.Array0
-- ==== Proof.Block1.lean ====
/-
  What the second layer's kernel body leaves in its output block, entry by entry.
-/
import proofs.«151763_j70188355551726_2_alg».proof.Proof.Gen.KernelIdeal.Frame
import proofs.«151763_j70188355551726_2_alg».proof.Proof.KernelMatmul
import proofs.«151763_j70188355551726_2_alg».proof.Proof.LayerSpec
import Idealize.ShloMosaic.Lib.ValueLayout

noncomputable section

namespace Cert.KernelIdeal.Block1

open Cert.KernelIdeal Cert.KernelIdeal.Gen Cert.KernelIdeal.MatmulRead Cert.GraphLayer
open Idealize.ShloMosaic Idealize.ShloMosaic.ValueIdx
open scoped BigOperators

/-- The first adjacency matrix's accumulated aggregate at `(p, k)`: the zero the accumulation starts from plus the four
    chunk products, each a sum over its 2048 neighbours, added in order. -/
theorem pay1_apply (v1 : Vec Ideal S256x2048 .f32) (v3 : Vec Ideal S2048x64 .bf16) (v7 : Vec Ideal S256x2048 .f32)
    (v9 : Vec Ideal S2048x64 .bf16) (v13 : Vec Ideal S256x2048 .f32) (v15 : Vec Ideal S2048x64 .bf16)
    (v19 : Vec Ideal S256x2048 .f32) (v21 : Vec Ideal S2048x64 .bf16) (p : Fin 256) (k : Fin 64) :
    k1_pay1 (F := Ideal) v1 v3 v7 v9 v13 v15 v19 v21 (ix2 p k)
      = Ideal.ofBits .f32 0x00000000#32
        + (∑ n : Fin 2048, v1 (ix2 p n) * v3 (ix2 n k)) + (∑ n : Fin 2048, v7 (ix2 p n) * v9 (ix2 n k))
        + (∑ n : Fin 2048, v13 (ix2 p n) * v15 (ix2 n k)) + (∑ n : Fin 2048, v19 (ix2 p n) * v21 (ix2 n k)) := by
  unfold k1_pay1
  simp only [addf_apply, broadcast_apply, shapeCast_self, agg64, truncf_apply]
  rfl

/-- The second adjacency matrix's aggregate starts the same way: zero plus its first chunk product. -/
theorem pay2_apply (v26 : Vec Ideal S256x2048 .f32) (v28 : Vec Ideal S2048x64 .bf16) (p : Fin 256) (k : Fin 64) :
    k1_pay2 (F := Ideal) v26 v28 (ix2 p k)
      = Ideal.ofBits .f32 0x00000000#32 + (∑ n : Fin 2048, v26 (ix2 p n) * v28 (ix2 n k)) := by
  unfold k1_pay2
  simp only [addf_apply, broadcast_apply, shapeCast_self, agg64, truncf_apply]
  rfl

/-- The stored value at `(p, q)`, from the first aggregate `v24`, the second aggregate's beginning `v31` and its three
    remaining chunk products: each branch is the linear map of its aggregate plus the bias, clamped below at zero;
    the two are added. -/
theorem pay3_apply (v24 v31 : FVec Ideal S256x64 .f32) (v32 : Vec Ideal S256x2048 .f32) (v34 : Vec Ideal S2048x64 .bf16)
    (v38 : Vec Ideal S256x2048 .f32) (v40 : Vec Ideal S2048x64 .bf16) (v44 : Vec Ideal S256x2048 .f32)
    (v46 : Vec Ideal S2048x64 .bf16) (v50 : Vec Ideal S64x16 .bf16) (v52 : Vec Ideal S16 .f32) (p : Fin 256) (q : Fin 16) :
    k1_pay3 (F := Ideal) v24 v31 v32 v34 v38 v40 v44 v46 v50 v52 (ix2 p q)
      = max ((∑ k : Fin 64, v24 (ix2 p k) * v50 (ix2 k q)) + v52 (ix1 q)) (Ideal.ofBits .f32 0x00000000#32)
        + max ((∑ k : Fin 64, (v31 (ix2 p k) + (∑ n : Fin 2048, v32 (ix2 p n) * v34 (ix2 n k))
                  + (∑ n : Fin 2048, v38 (ix2 p n) * v40 (ix2 n k)) + (∑ n : Fin 2048, v44 (ix2 p n) * v46 (ix2 n k)))
                * v50 (ix2 k q)) + v52 (ix1 q)) (Ideal.ofBits .f32 0x00000000#32) := by
  unfold k1_pay3
  simp only [addf_apply, maximumf_apply, broadcast_apply, shapeCast_self, lin64_16, agg64, truncf_apply,
    broadcastTo_1b_ab_apply, shapeCast_a_1a_apply]
  rfl

/-- One chunk's term: the slab read through the rectangle of columns `o … o + 2047` and the features through the
    rectangle of rows `o … o + 2047` are the slab's column `o + n` and the features' row `o + n`. -/
theorem chunk_term (x : Vec Ideal S256x8192 .f32) (X2 : Vec Ideal S8192x64 .bf16) (o : ℕ)
    (inbA : ∀ ax, (![0, o] : Fin 2 → Nat) ax + S256x2048.size ax ≤ S256x8192.size ax)
    (inbX : ∀ ax, (![o, 0] : Fin 2 → Nat) ax + S2048x64.size ax ≤ S8192x64.size ax)
    (p : Fin 256) (n : Fin 2048) (k : Fin 64) (j : Fin 8192) (hj : j.val = o + n.val) :
    View.ld x (Rect.unit (s := S256x8192) ![0, o] S256x2048.size inbA) (ix2 p n)
        * View.ld X2 (Rect.unit (s := S8192x64) ![o, 0] S2048x64.size inbX) (ix2 n k)
      = x (ix2 p j) * X2 (ix2 j k) := by
  refine congrArg₂ (· * ·) (congrArg x (funext fun ax => Fin.ext ?_)) (congrArg X2 (funext fun ax => Fin.ext ?_))
  · match ax with
    | ⟨0, _⟩ => show 0 + 1 * p.val = p.val; omega
    | ⟨1, _⟩ => show o + 1 * n.val = j.val; omega
  · match ax with
    | ⟨0, _⟩ => show o + 1 * n.val = j.val; omega
    | ⟨1, _⟩ => show 0 + 1 * k.val = k.val; omega

/-- THE FOUR CHUNKS ARE THE WHOLE ROW. Zero plus the four chunk products over the loaded rectangles, added in order,
    is the aggregate over all 8192 neighbours. -/
theorem chunks_agg (x : Vec Ideal S256x8192 .f32) (X2 : Vec Ideal S8192x64 .bf16) (p : Fin 256) (k : Fin 64) :
    Ideal.ofBits .f32 0x00000000#32
        + (∑ n : Fin 2048, View.ld x r1_0 (ix2 p n) * View.ld X2 r1_1 (ix2 n k))
        + (∑ n : Fin 2048, View.ld x r1_2 (ix2 p n) * View.ld X2 r1_3 (ix2 n k))
        + (∑ n : Fin 2048, View.ld x r1_4 (ix2 p n) * View.ld X2 r1_5 (ix2 n k))
        + (∑ n : Fin 2048, View.ld x r1_6 (ix2 p n) * View.ld X2 r1_7 (ix2 n k))
      = agg (rows := 256) (n := 8192) (din := 64) x X2 p k := by
  rw [agg_eq_chunks 2048 rfl]
  refine congrArg₂ (· + ·) (congrArg₂ (· + ·) (congrArg₂ (· + ·) (congrArg₂ (· + ·) rfl ?_) ?_) ?_) ?_
  · exact Finset.sum_congr rfl fun n _ => chunk_term x X2 0 _ _ p n k _ (by show n.val = 0 + n.val; omega)
  · exact Finset.sum_congr rfl fun n _ => chunk_term x X2 2048 _ _ p n k _ rfl
  · exact Finset.sum_congr rfl fun n _ => chunk_term x X2 4096 _ _ p n k _ (by show 2048 + 2048 + n.val = 4096 + n.val; omega)
  · exact Finset.sum_congr rfl fun n _ => chunk_term x X2 6144 _ _ p n k _ (by show 2048 + 2048 + 2048 + n.val = 6144 + n.val; omega)

theorem hz2 : (![0, 0] : Fin 2 → Nat) = fun _ => 0 := funext fun a => by fin_cases a <;> rfl
theorem hz1 : (![0] : Fin 1 → Nat) = fun _ => 0 := funext fun a => by fin_cases a; rfl

/-- THE BLOCK. What the body leaves at `(p, q)` of its 256 × 16 output block is the layer function of the blocks it was
    given: its two 256-row adjacency slabs, the whole hidden array, the weights and the bias. -/
theorem out_apply (x0 x1 : Vec Ideal S256x8192 .f32) (x2 : Vec Ideal S8192x64 .bf16) (x3 : Vec Ideal S64x16 .bf16)
    (x4 : Vec Ideal S16 .f32) (p : Fin 256) (q : Fin 16) :
    out1_5 (F := Ideal) x0 x1 x2 x3 x4 (ix2 p q)
      = layer (rows := 256) (n := 8192) (din := 64) (dout := 16) x0 x1 x2 x3 x4 (ix2 p q) := by
  unfold out1_5
  rw [View.canon_unit_zero hz2]
  simp only [View.ld_unit_zero (S := S64x16) hz2, View.ld_unit_zero (S := S16) hz1]
  rw [pay3_apply, layer_ix2]
  unfold branch
  have hA : ∀ k : Fin 64, k1_pay1 (F := Ideal) (View.ld x0 r1_0) (View.ld x2 r1_1) (View.ld x0 r1_2) (View.ld x2 r1_3)
      (View.ld x0 r1_4) (View.ld x2 r1_5) (View.ld x0 r1_6) (View.ld x2 r1_7) (ix2 p k)
        = agg (rows := 256) (n := 8192) (din := 64) x0 x2 p k :=
    fun k => (pay1_apply _ _ _ _ _ _ _ _ p k).trans (chunks_agg x0 x2 p k)
  have hB : ∀ k : Fin 64, k1_pay2 (F := Ideal) (View.ld x1 r1_0) (View.ld x2 r1_1) (ix2 p k)
        + (∑ n : Fin 2048, View.ld x1 r1_2 (ix2 p n) * View.ld x2 r1_3 (ix2 n k))
        + (∑ n : Fin 2048, View.ld x1 r1_4 (ix2 p n) * View.ld x2 r1_5 (ix2 n k))
        + (∑ n : Fin 2048, View.ld x1 r1_6 (ix2 p n) * View.ld x2 r1_7 (ix2 n k))
        = agg (rows := 256) (n := 8192) (din := 64) x1 x2 p k :=
    fun k => by rw [pay2_apply]; exact chunks_agg x1 x2 p k
  exact congrArg₂ (· + ·)
    (congrArg (fun s : EReal => max (s + x4 (ix1 q)) (Ideal.ofBits .f32 0x00000000#32))
      (Finset.sum_congr rfl fun k _ => congrArg (· * x3 (ix2 k q)) (hA k)))
    (congrArg (fun s : EReal => max (s + x4 (ix1 q)) (Ideal.ofBits .f32 0x00000000#32))
      (Finset.sum_congr rfl fun k _ => congrArg (· * x3 (ix2 k q)) (hB k)))

end Cert.KernelIdeal.Block1
-- ==== Proof.Array1.lean ====
/-
  The second layer's output array after its pallas_call, as one function of the arrays the call is entered with.

  Grid point `t` (of 32) is given rows `256 t … 256 t + 255` of each adjacency matrix and the whole of the hidden array,
  weights and bias, and writes back rows `256 t … 256 t + 255` of the output. By the block lemma what it writes at
  `(p, q)` is the layer function of its blocks; a branch reads its adjacency slab only in row `p`, which is row
  `256 t + p` of the matrix, so the written block is the corresponding block of the layer function of the WHOLE arrays.
  The 32 blocks tile the 8192 rows (row `r` lies in block `r / 256`), so the array ends holding that function everywhere.
  All of this is at an arbitrary entry contents `V`, as for the first layer.
-/
import proofs.«151763_j70188355551726_2_alg».proof.Proof.Block1

set_option maxRecDepth 16384

noncomputable section

namespace Cert.KernelIdeal.Array1

open Cert.KernelIdeal Cert.KernelIdeal.Gen Cert.GraphLayer
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The layer function of the arrays the call is entered with. -/
def G (c : Dev nD) : S8192x16.Idx → EReal :=
  layer (rows := 8192) (n := 8192) (din := 64) (dout := 16) (V c main_arg0) (V c main_arg1) (V c main_v4) (V c main_v2) (V c main_arg6)

/-- The printed index maps over the grid: the adjacency matrices' and the output's blocks are at block row `t`,
    every other window at the origin. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- WHAT POINT `t` WRITES BACK is block `t` of the layer function of the entry arrays. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  obtain ⟨e00, e01, e10, e11, e20, e21, e30, e31, e40, e50, e51⟩ := idx_facts t
  have ht : t.val < 32 := t.isLt
  -- the three windows over whole arrays read those arrays
  have h2 : iblk1 V c 2 t = V c main_v4 := funext fun y => congrArg (V c main_v4) (funext fun ax => Fin.ext (by
    match ax with
    | ⟨0, _⟩ => show win1_2.index t (0 : Fin 2) * 8192 + 1 * (y 0).val = (y 0).val; omega
    | ⟨1, _⟩ => show win1_2.index t (1 : Fin 2) * 64 + 1 * (y 1).val = (y 1).val; omega))
  have h3 : iblk1 V c 3 t = V c main_v2 := funext fun y => congrArg (V c main_v2) (funext fun ax => Fin.ext (by
    match ax with
    | ⟨0, _⟩ => show win1_3.index t (0 : Fin 2) * 64 + 1 * (y 0).val = (y 0).val; omega
    | ⟨1, _⟩ => show win1_3.index t (1 : Fin 2) * 16 + 1 * (y 1).val = (y 1).val; omega))
  have h4 : iblk1 V c 4 t = V c main_arg6 := funext fun y => congrArg (V c main_arg6) (funext fun ax => Fin.ext (by
    match ax with
    | ⟨0, _⟩ => show win1_4.index t (0 : Fin 1) * 16 + 1 * (y 0).val = (y 0).val; omega))
  have key : ∀ (p : Fin 256) (q : Fin 16),
      out1_5 (F := Ideal) (iblk1 V c 0 t) (iblk1 V c 1 t) (iblk1 V c 2 t) (iblk1 V c 3 t) (iblk1 V c 4 t) (ix2 p q)
        = G V c (((cfg1.win 5).blk t).view.emb (ix2 p q)) := by
    intro p q
    have hemb : ((cfg1.win 5).blk t).view.emb (ix2 p q) = ix2 (⟨256 * t.val + p.val, by have := p.isLt; omega⟩ : Fin 8192) q :=
      funext fun ax => Fin.ext (by
        match ax with
        | ⟨0, _⟩ => show win1_5.index t (0 : Fin 2) * 256 + 1 * p.val = 256 * t.val + p.val; omega
        | ⟨1, _⟩ => show win1_5.index t (1 : Fin 2) * 16 + 1 * q.val = q.val; omega)
    refine (Block1.out_apply (iblk1 V c 0 t) (iblk1 V c 1 t) (iblk1 V c 2 t) (iblk1 V c 3 t) (iblk1 V c 4 t) p q).trans ?_
    rw [hemb, h2, h3, h4]
    unfold G
    rw [layer_ix2, layer_ix2]
    refine congrArg₂ (· + ·) (branch_congr_row _ _ _ _ _ _ _ q fun j => ?_) (branch_congr_row _ _ _ _ _ _ _ q fun j => ?_)
    · exact congrArg (V c main_arg0) (funext fun ax => Fin.ext (by
        match ax with
        | ⟨0, _⟩ => show win1_0.index t (0 : Fin 2) * 256 + 1 * p.val = 256 * t.val + p.val; omega
        | ⟨1, _⟩ => show win1_0.index t (1 : Fin 2) * 8192 + 1 * j.val = j.val; omega))
    · exact congrArg (V c main_arg1) (funext fun ax => Fin.ext (by
        match ax with
        | ⟨0, _⟩ => show win1_1.index t (0 : Fin 2) * 256 + 1 * p.val = 256 * t.val + p.val; omega
        | ⟨1, _⟩ => show win1_1.index t (1 : Fin 2) * 8192 + 1 * j.val = j.val; omega))
  funext y
  have hy : y = ix2 (y 0) (y 1) := eq_ix2 y
  rw [hy]
  exact key (y 0) (y 1)

/-- An index of the array is in point `t`'s block iff each coordinate is in the block's range on its axis. -/
theorem mem_blk (t : Fin cfg1.N) (i : S8192x16.Idx) :
    i ∈ ((cfg1.win 5).blk t).view.set ↔ ∀ a : Fin 2, win1_5.index t a * S256x16.size a ≤ (i a).val ∧ (i a).val < win1_5.index t a * S256x16.size a + S256x16.size a := by
  show i ∈ ((View.whole main_v5).slice (win1_5.rect t)).set ↔ _
  rw [View.set_slice_whole, Rect.mem_set_unit]
  exact Iff.rfl

/-- THE BLOCKS TILE THE ROWS: row `r` is written by point `r / 256`. -/
theorem cover (i : S8192x16.Idx) : ∃ t : Fin cfg1.N, (cfg1.win 5).flush t = true ∧ i ∈ ((cfg1.win 5).blk t).view.set := by
  have hi0 : (i 0).val < 8192 := (i 0).isLt
  have hi1 : (i 1).val < 16 := (i 1).isLt
  let t : Fin cfg1.N := ⟨(i 0).val / 256, by show (i 0).val / 256 < 32; omega⟩
  obtain ⟨-, -, -, -, -, -, -, -, -, e50, e51⟩ := idx_facts t
  have ht : t.val = (i 0).val / 256 := rfl
  refine ⟨t, flush1_5 t, ?_⟩
  rw [mem_blk]
  intro a
  match a with
  | ⟨0, _⟩ => show win1_5.index t (0 : Fin 2) * 256 ≤ (i 0).val ∧ (i 0).val < win1_5.index t (0 : Fin 2) * 256 + 256; omega
  | ⟨1, _⟩ => show win1_5.index t (1 : Fin 2) * 16 ≤ (i 1).val ∧ (i 1).val < win1_5.index t (1 : Fin 2) * 16 + 16; omega

/-- THE ARRAY after the call: the layer function of the entry arrays. -/
theorem final (c : Dev nD) : (dat1 V c).arrAt 5 cfg1.N = G V c :=
  (dat1 V c).arrAt_eq_of_cover 5 (G V c) (fun t _ => flushed_eq V c t) (cover)

end Cert.KernelIdeal.Array1
-- ==== Proof.KernelRun.lean ====
/-
  The kernel's run, read: its result array as one function of the launch arrays.

  @main is four segments: three narrowing converts (features, both weight matrices), the first layer's call, one
  narrowing convert of its result, the second layer's call. At the ideal instance a narrowing convert is the
  identity. So the first call is entered with the launch arrays (features and first weights "narrowed", that is,
  unchanged) and leaves the layer function of them — the hidden array; the second call is entered with the launch
  adjacency matrices and second bias, the second weights and the hidden array (both unchanged by narrowing), and
  leaves the layer function of those. The run: every weakly fair execution terminates without a fault, with every
  buffer that outlives the calls at the last boundary's contents — read here at the result buffer and at the seven
  argument buffers.
-/
import proofs.«151763_j70188355551726_2_alg».proof.Proof.Array0
import proofs.«151763_j70188355551726_2_alg».proof.Proof.Array1
import Idealize.ShloMosaic.Lib.StableHlo.Run

set_option maxRecDepth 16384

noncomputable section

namespace Cert.KernelIdeal.Run

open Cert.KernelIdeal Cert.KernelIdeal.Gen Cert.GraphLayer
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The first call's entry arrays are the launch arrays -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg4 (c : Dev nD) : V1 m ρ c main_arg4 = m ((c : Thread nD τ).loc main_arg4) := by
  show StableHlo.after hostOps0 (W0 m ρ c) (Proc.devRef .tc main_arg4) = _
  after_results
/-- The narrowed features are the features. -/
theorem V1_v0 (c : Dev nD) :
    (V1 m ρ c main_v0 : S8192x32.Idx → EReal) = (m ((c : Thread nD τ).loc main_arg2) : S8192x32.Idx → EReal) := by
  show StableHlo.after hostOps0 (W0 m ρ c) (Proc.devRef .tc main_v0) = _
  after_results
  rfl
/-- The narrowed first weights are the first weights. -/
theorem V1_v1 (c : Dev nD) :
    (V1 m ρ c main_v1 : S32x64.Idx → EReal) = (m ((c : Thread nD τ).loc main_arg3) : S32x64.Idx → EReal) := by
  show StableHlo.after hostOps0 (W0 m ρ c) (Proc.devRef .tc main_v1) = _
  after_results
  rfl

/-- THE HIDDEN ARRAY: the layer function of the launch arrays. -/
def hidden (c : Dev nD) : S8192x64.Idx → EReal :=
  layer (rows := 8192) (n := 8192) (din := 32) (dout := 64) (m ((c : Thread nD τ).loc main_arg0)) (m ((c : Thread nD τ).loc main_arg1))
    (m ((c : Thread nD τ).loc main_arg2)) (m ((c : Thread nD τ).loc main_arg3)) (m ((c : Thread nD τ).loc main_arg4))

/-- The first call leaves the hidden array in its output. -/
theorem first_call (c : Dev nD) : (dat0 (V1 m ρ) c).arrAt 5 cfg0.N = hidden m c := by
  rw [Array0.final (V1 m ρ) c]
  unfold Array0.G hidden
  rw [V1_arg0, V1_arg1, V1_arg4, V1_v0, V1_v1]

/-! ## The second call's entry arrays -/

theorem V3_arg0 (c : Dev nD) : V3 m ρ c main_arg0 = m ((c : Thread nD τ).loc main_arg0) :=
  ((W4_arr m ρ c 0).trans (((dat1 (V3 m ρ) c).arrAt_in 0 rfl _).trans (A_eq1 (V3 m ρ) c 0))).symm.trans (W4_main_arg0 m ρ c)
theorem V3_arg1 (c : Dev nD) : V3 m ρ c main_arg1 = m ((c : Thread nD τ).loc main_arg1) :=
  ((W4_arr m ρ c 1).trans (((dat1 (V3 m ρ) c).arrAt_in 1 rfl _).trans (A_eq1 (V3 m ρ) c 1))).symm.trans (W4_main_arg1 m ρ c)
theorem V3_arg6 (c : Dev nD) : V3 m ρ c main_arg6 = m ((c : Thread nD τ).loc main_arg6) :=
  ((W4_arr m ρ c 4).trans (((dat1 (V3 m ρ) c).arrAt_in 4 rfl _).trans (A_eq1 (V3 m ρ) c 4))).symm.trans (W4_main_arg6 m ρ c)

/-- The narrowed second weights, written before the first call and untouched by it, are the second weights. -/
theorem V3_v2 (c : Dev nD) :
    (V3 m ρ c main_v2 : S64x16.Idx → EReal) = (m ((c : Thread nD τ).loc main_arg5) : S64x16.Idx → EReal) := by
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results
  rfl

/-- The narrowed first-call output is the hidden array. -/
theorem V3_v4 (c : Dev nD) : (V3 m ρ c main_v4 : S8192x64.Idx → EReal) = hidden m c := by
  show StableHlo.after hostOps1 (W2 m ρ c) (Proc.devRef .tc main_v4) = _
  after_results
  exact (W2_arr m ρ c 5).trans (first_call m ρ c)

/-- THE RESULT: the layer function of the launch adjacency matrices, the hidden array, the second weights and bias. -/
def result (c : Dev nD) : S8192x16.Idx → EReal :=
  layer (rows := 8192) (n := 8192) (din := 64) (dout := 16) (m ((c : Thread nD τ).loc main_arg0)) (m ((c : Thread nD τ).loc main_arg1))
    (hidden m c) (m ((c : Thread nD τ).loc main_arg5)) (m ((c : Thread nD τ).loc main_arg6))

/-- The second call leaves the result in its output. -/
theorem second_call (c : Dev nD) : (dat1 (V3 m ρ) c).arrAt 5 cfg1.N = result m c := by
  rw [Array1.final (V3 m ρ) c]
  unfold Array1.G result
  rw [V3_arg0, V3_arg1, V3_arg6, V3_v2, V3_v4]

/-- The last boundary's contents at the result buffer. -/
theorem W4_result (c : Dev nD) : W4 m ρ c (Proc.devRef .tc main_v5) = result m c :=
  (W4_arr m ρ c 5).trans (second_call m ρ c)

/-! ## The run -/

set_option backward.isDefEq.respectTransparency.types false in
/-- From any memory with zero counters, every weakly fair execution of @main terminates, nothing faulting, with the
    result buffer at `result` of the launch arrays and the argument arrays as launched. -/
theorem run : θ_run defs (onTc (τ := τ) (main (F := Ideal))) ⟨m, fun _ => 0, ρ⟩ (fun r => ∀ c : Dev nD,
      r.2.mem ((c.tc : Thread nD τ).loc main_v5) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v5 (by decide))).trans (W4_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩)

end Cert.KernelIdeal.Run
-- ==== Proof.RefIsLayer.lean ====
/-
  The reference computes the layer function, twice.

  Read one operation at a time, the reference's first layer is: two matrix products (the neighbour aggregation, then
  the linear map), the bias broadcast along the rows, a maximum with zero — once per adjacency matrix — and the sum of
  the two. At an entry `(r, q)` that is, term for term, `branch A X W b r q` for each adjacency matrix and their sum
  `layer A1 A2 X W b`. The second layer is the same computation with the first layer's result as node features.
  Nothing is rearranged on this side: each step only names the index an operation reads its operand at.
-/
import proofs.«151763_j70188355551726_2_alg».proof.Proof.Gen.ReferenceIdeal.Read
import proofs.«151763_j70188355551726_2_alg».proof.Proof.LayerSpec

noncomputable section

namespace Cert.ReferenceIdeal.RefValue

open Cert.ReferenceIdeal Cert.ReferenceIdeal.Read Idealize.ShloMosaic Idealize.ShloMosaic.ValueIdx Cert.GraphLayer
open scoped BigOperators

/-! ## Where each operation reads its operands -/

-- first layer, the aggregation and the linear map of either branch
theorem lidx_v0 (r : Fin 8192) (k : Fin 32) (j : Fin 8192) : lidx_main_v0 (ix2 r k) j = ix2 r j :=
  funext fun ax => Fin.ext (by match ax with | ⟨0, _⟩ => rfl | ⟨1, _⟩ => rfl)
theorem ridx_v0 (r : Fin 8192) (k : Fin 32) (j : Fin 8192) : ridx_main_v0 (ix2 r k) j = ix2 j k :=
  funext fun ax => Fin.ext (by match ax with | ⟨0, _⟩ => rfl | ⟨1, _⟩ => rfl)
theorem lidx_v1 (r : Fin 8192) (q : Fin 64) (k : Fin 32) : lidx_main_v1 (ix2 r q) k = ix2 r k :=
  funext fun ax => Fin.ext (by match ax with | ⟨0, _⟩ => rfl | ⟨1, _⟩ => rfl)
theorem ridx_v1 (r : Fin 8192) (q : Fin 64) (k : Fin 32) : ridx_main_v1 (ix2 r q) k = ix2 k q :=
  funext fun ax => Fin.ext (by match ax with | ⟨0, _⟩ => rfl | ⟨1, _⟩ => rfl)
theorem lidx_v6 (r : Fin 8192) (k : Fin 32) (j : Fin 8192) : lidx_main_v6 (ix2 r k) j = ix2 r j :=
  funext fun ax => Fin.ext (by match ax with | ⟨0, _⟩ => rfl | ⟨1, _⟩ => rfl)
theorem ridx_v6 (r : Fin 8192) (k : Fin 32) (j : Fin 8192) : ridx_main_v6 (ix2 r k) j = ix2 j k :=
  funext fun ax => Fin.ext (by match ax with | ⟨0, _⟩ => rfl | ⟨1, _⟩ => rfl)
theorem lidx_v7 (r : Fin 8192) (q : Fin 64) (k : Fin 32) : lidx_main_v7 (ix2 r q) k = ix2 r k :=
  funext fun ax => Fin.ext (by match ax with | ⟨0, _⟩ => rfl | ⟨1, _⟩ => rfl)
theorem ridx_v7 (r : Fin 8192) (q : Fin 64) (k : Fin 32) : ridx_main_v7 (ix2 r q) k = ix2 k q :=
  funext fun ax => Fin.ext (by match ax with | ⟨0, _⟩ => rfl | ⟨1, _⟩ => rfl)
-- first layer, the bias: [64] → [1, 64] → [8192, 64]
theorem idx_v3 (r : Fin 8192) (q : Fin 64) : idx_main_v3 (ix2 r q) = ix2 (0 : Fin 1) q :=
  funext fun ax => Fin.ext (by match ax with | ⟨0, _⟩ => rfl | ⟨1, _⟩ => rfl)
theorem idx_v2 (u : Fin 1) (q : Fin 64) : idx_main_v2 (ix2 u q) = ix1 q :=
  funext fun ax => Fin.ext (by match ax with | ⟨0, _⟩ => rfl)
theorem idx_v9 (r : Fin 8192) (q : Fin 64) : idx_main_v9 (ix2 r q) = ix2 (0 : Fin 1) q :=
  funext fun ax => Fin.ext (by match ax with | ⟨0, _⟩ => rfl | ⟨1, _⟩ => rfl)
theorem idx_v8 (u : Fin 1) (q : Fin 64) : idx_main_v8 (ix2 u q) = ix1 q :=
  funext fun ax => Fin.ext (by match ax with | ⟨0, _⟩ => rfl)
-- second layer
theorem lidx_v13 (r : Fin 8192) (k : Fin 64) (j : Fin 8192) : lidx_main_v13 (ix2 r k) j = ix2 r j :=
  funext fun ax => Fin.ext (by match ax with | ⟨0, _⟩ => rfl | ⟨1, _⟩ => rfl)
theorem ridx_v13 (r : Fin 8192) (k : Fin 64) (j : Fin 8192) : ridx_main_v13 (ix2 r k) j = ix2 j k :=
  funext fun ax => Fin.ext (by match ax with | ⟨0, _⟩ => rfl | ⟨1, _⟩ => rfl)
theorem lidx_v14 (r : Fin 8192) (q : Fin 16) (k : Fin 64) : lidx_main_v14 (ix2 r q) k = ix2 r k :=
  funext fun ax => Fin.ext (by match ax with | ⟨0, _⟩ => rfl | ⟨1, _⟩ => rfl)
theorem ridx_v14 (r : Fin 8192) (q : Fin 16) (k : Fin 64) : ridx_main_v14 (ix2 r q) k = ix2 k q :=
  funext fun ax => Fin.ext (by match ax with | ⟨0, _⟩ => rfl | ⟨1, _⟩ => rfl)
theorem lidx_v19 (r : Fin 8192) (k : Fin 64) (j : Fin 8192) : lidx_main_v19 (ix2 r k) j = ix2 r j :=
  funext fun ax => Fin.ext (by match ax with | ⟨0, _⟩ => rfl | ⟨1, _⟩ => rfl)
theorem ridx_v19 (r : Fin 8192) (k : Fin 64) (j : Fin 8192) : ridx_main_v19 (ix2 r k) j = ix2 j k :=
  funext fun ax => Fin.ext (by match ax with | ⟨0, _⟩ => rfl | ⟨1, _⟩ => rfl)
theorem lidx_v20 (r : Fin 8192) (q : Fin 16) (k : Fin 64) : lidx_main_v20 (ix2 r q) k = ix2 r k :=
  funext fun ax => Fin.ext (by match ax with | ⟨0, _⟩ => rfl | ⟨1, _⟩ => rfl)
theorem ridx_v20 (r : Fin 8192) (q : Fin 16) (k : Fin 64) : ridx_main_v20 (ix2 r q) k = ix2 k q :=
  funext fun ax => Fin.ext (by match ax with | ⟨0, _⟩ => rfl | ⟨1, _⟩ => rfl)
theorem idx_v16 (r : Fin 8192) (q : Fin 16) : idx_main_v16 (ix2 r q) = ix2 (0 : Fin 1) q :=
  funext fun ax => Fin.ext (by match ax with | ⟨0, _⟩ => rfl | ⟨1, _⟩ => rfl)
theorem idx_v15 (u : Fin 1) (q : Fin 16) : idx_main_v15 (ix2 u q) = ix1 q :=
  funext fun ax => Fin.ext (by match ax with | ⟨0, _⟩ => rfl)
theorem idx_v22 (r : Fin 8192) (q : Fin 16) : idx_main_v22 (ix2 r q) = ix2 (0 : Fin 1) q :=
  funext fun ax => Fin.ext (by match ax with | ⟨0, _⟩ => rfl | ⟨1, _⟩ => rfl)
theorem idx_v21 (u : Fin 1) (q : Fin 16) : idx_main_v21 (ix2 u q) = ix1 q :=
  funext fun ax => Fin.ext (by match ax with | ⟨0, _⟩ => rfl)

variable (x0 x1 : (⟨S8192x8192, .f32⟩ : BufTy).Contents (Elt Ideal)) (x2 : (⟨S8192x32, .f32⟩ : BufTy).Contents (Elt Ideal))
  (x3 : (⟨S32x64, .f32⟩ : BufTy).Contents (Elt Ideal)) (x4 : (⟨S64, .f32⟩ : BufTy).Contents (Elt Ideal))
  (x5 : (⟨S64x16, .f32⟩ : BufTy).Contents (Elt Ideal)) (x6 : (⟨S16, .f32⟩ : BufTy).Contents (Elt Ideal))

/-! ## The first layer -/

/-- The first adjacency matrix's branch of the first layer. -/
theorem branch_v5 (r : Fin 8192) (q : Fin 64) :
    val_main_v5 (F := Ideal) x0 x2 x3 x4 (ix2 r q) = branch (rows := 8192) (n := 8192) (din := 32) (dout := 64) x0 x2 x3 x4 r q := by
  rw [val_main_v5_apply, val_main_v4_apply, val_main_v1_apply, val_main_v3_apply, idx_v3, val_main_v2_apply, idx_v2,
    val_main_call0_v0_apply, val_main_call0_cst_apply]
  simp only [lidx_v1, ridx_v1, val_main_v0_apply, lidx_v0, ridx_v0]
  rfl

/-- The second adjacency matrix's branch of the first layer. -/
theorem branch_v11 (r : Fin 8192) (q : Fin 64) :
    val_main_v11 (F := Ideal) x1 x2 x3 x4 (ix2 r q) = branch (rows := 8192) (n := 8192) (din := 32) (dout := 64) x1 x2 x3 x4 r q := by
  rw [val_main_v11_apply, val_main_v10_apply, val_main_v7_apply, val_main_v9_apply, idx_v9, val_main_v8_apply, idx_v8,
    val_main_call1_v0_apply, val_main_call1_cst_apply]
  simp only [lidx_v7, ridx_v7, val_main_v6_apply, lidx_v6, ridx_v6]
  rfl

/-- THE FIRST LAYER: the reference's hidden array is the layer function of the launch arrays. -/
theorem layer1 : val_main_v12 (F := Ideal) x0 x1 x2 x3 x4 = layer (rows := 8192) (n := 8192) (din := 32) (dout := 64) x0 x1 x2 x3 x4 := by
  funext i
  obtain ⟨r, q, rfl⟩ : ∃ (r : Fin 8192) (q : Fin 64), i = ix2 r q := ⟨i 0, i 1, eq_ix2 i⟩
  rw [val_main_v12_apply, branch_v5, branch_v11, layer_ix2]
  rfl

/-! ## The second layer, over the first layer's result -/

/-- The first adjacency matrix's branch of the second layer. -/
theorem branch_v18 (r : Fin 8192) (q : Fin 16) :
    val_main_v18 (F := Ideal) x0 x1 x2 x3 x4 x5 x6 (ix2 r q)
      = branch (rows := 8192) (n := 8192) (din := 64) (dout := 16) x0 (val_main_v12 (F := Ideal) x0 x1 x2 x3 x4) x5 x6 r q := by
  rw [val_main_v18_apply, val_main_v17_apply, val_main_v14_apply, val_main_v16_apply, idx_v16, val_main_v15_apply, idx_v15,
    val_main_call2_v0_apply, val_main_call2_cst_apply]
  simp only [lidx_v14, ridx_v14, val_main_v13_apply, lidx_v13, ridx_v13]
  rfl

/-- The second adjacency matrix's branch of the second layer. -/
theorem branch_v24 (r : Fin 8192) (q : Fin 16) :
    val_main_v24 (F := Ideal) x0 x1 x2 x3 x4 x5 x6 (ix2 r q)
      = branch (rows := 8192) (n := 8192) (din := 64) (dout := 16) x1 (val_main_v12 (F := Ideal) x0 x1 x2 x3 x4) x5 x6 r q := by
  rw [val_main_v24_apply, val_main_v23_apply, val_main_v20_apply, val_main_v22_apply, idx_v22, val_main_v21_apply, idx_v21,
    val_main_call3_v0_apply, val_main_call3_cst_apply]
  simp only [lidx_v20, ridx_v20, val_main_v19_apply, lidx_v19, ridx_v19]
  rfl

/-- THE RESULT: the reference's output is the layer function applied twice — the second time with the first
    layer's result as node features. -/
theorem result : val_main_v25 (F := Ideal) x0 x1 x2 x3 x4 x5 x6
    = layer (rows := 8192) (n := 8192) (din := 64) (dout := 16) x0 x1
        (layer (rows := 8192) (n := 8192) (din := 32) (dout := 64) x0 x1 x2 x3 x4) x5 x6 := by
  funext i
  obtain ⟨r, q, rfl⟩ : ∃ (r : Fin 8192) (q : Fin 16), i = ix2 r q := ⟨i 0, i 1, eq_ix2 i⟩
  rw [val_main_v25_apply, branch_v18, branch_v24, layer1, layer_ix2]
  rfl

end Cert.ReferenceIdeal.RefValue
-- ==== Proof.lean ====
/-
  A two-layer graph convolution: the kernel against its reference, on the extended reals.

  Both programs compute, for adjacency matrices `A1`, `A2` (8192 × 8192), node features `X` (8192 × 32), weights `W1`
  (32 × 64), `W2` (64 × 16) and biases `b1`, `b2`,

      H = layer A1 A2 X W1 b1          Y = layer A1 A2 H W2 b2

  where `layer A1 A2 X W b` at `(r, q)` is `max (Σ_k (Σ_j A1[r, j] · X[j, k]) · W[k, q] + b[q], 0)` plus the same
  with `A2` (Proof/LayerSpec.lean).

  The REFERENCE computes exactly this, operation by operation: two matrix products, a broadcast bias, a maximum
  with zero, per adjacency matrix, and a sum — twice (Proof/RefIsLayer.lean).

  The KERNEL computes each layer in one call over 32 blocks of 256 rows. Inside a block the neighbour sum `Σ_j` over
  8192 neighbours is accumulated as zero plus four partial products over chunks of 2048 neighbours, from operands
  narrowed to a shorter float format. At the ideal instance narrowing is the identity, and the ONE law that joins
  the two sides is the regrouping of that sum into its four consecutive chunks added onto zero
  (`GraphLayer.agg_eq_chunks`): associativity and commutativity of addition and `0 + x = x`, which hold on the extended
  reals at infinite values too. So no finiteness is needed, and the precondition is never opened.
  Per block (Proof/Block0.lean, Block1.lean), per call (Array0.lean, Array1.lean: the 32 blocks tile the rows), and
  through the run (KernelRun.lean: the second call is entered with the first call's result), the kernel's result
  buffer ends at `Y`.

  The kernel's idealization rewrote nothing, so `preserves` has nothing to state.
-/
import proofs.«151763_j70188355551726_2_alg».proof.Defs
import proofs.«151763_j70188355551726_2_alg».proof.Proof.Gen.Kernel
import proofs.«151763_j70188355551726_2_alg».proof.Proof.Gen.Kernel.Skeleton
import proofs.«151763_j70188355551726_2_alg».proof.Proof.Gen.Kernel.Launch
import proofs.«151763_j70188355551726_2_alg».proof.Proof.Gen.Kernel.Points
import proofs.«151763_j70188355551726_2_alg».proof.Proof.Gen.Kernel.Frame
import proofs.«151763_j70188355551726_2_alg».proof.Proof.Gen.KernelIdeal
import proofs.«151763_j70188355551726_2_alg».proof.Proof.Gen.KernelIdeal.Skeleton
import proofs.«151763_j70188355551726_2_alg».proof.Proof.Gen.KernelIdeal.Launch
import proofs.«151763_j70188355551726_2_alg».proof.Proof.Gen.KernelIdeal.Points
import proofs.«151763_j70188355551726_2_alg».proof.Proof.Gen.KernelIdeal.Frame
import proofs.«151763_j70188355551726_2_alg».proof.Proof.Gen.ReferenceIdeal
import proofs.«151763_j70188355551726_2_alg».proof.Proof.Gen.Pre_finite_inputs
import proofs.«151763_j70188355551726_2_alg».proof.Proof.Gen.ReferenceIdeal.Run
import proofs.«151763_j70188355551726_2_alg».proof.Proof.Gen.ReferenceIdeal.Read
import proofs.«151763_j70188355551726_2_alg».proof.Proof.KernelRun
import proofs.«151763_j70188355551726_2_alg».proof.Proof.RefIsLayer
import Idealize.ShloMosaic.Adequacy
import Idealize.ShloMosaic.Init

noncomputable section

namespace Cert.Proof

open Idealize.ShloMosaic Idealize.SL.Sem Cert.Kernel

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the seven arguments, both programs end with their result buffers at the same
    array: the layer function applied twice to the launch arrays. -/
theorem algebraic : Cert.algebraic_KernelIdeal_ReferenceIdeal := by
  intro m ρ m' ρ' _ hagree
  refine ⟨fun c => Cert.KernelIdeal.Run.result m c, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v25_eq, Cert.ReferenceIdeal.RefValue.result, h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
